-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x128 : Shape := ⟨4, ![16, 32, 32, 128]⟩
abbrev S32x128 : Shape := ⟨2, ![32, 128]⟩
abbrev S32 : Shape := ⟨1, ![32]⟩
abbrev S_ : Shape := ⟨0, ![]⟩

class Facts : Prop where
  bcast_S_S16x32x32x128 : S_.BroadcastsInDim S16x32x32x128 (![] : Fin 0 → Fin S16x32x32x128.rank)
  reducesTo_S16x32x32x128_S_d0_1_2_3 : S16x32x32x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x32x32x128 .f32) (main_arg1 : FVec F S32x128 .f32) (main_arg2 : FVec F S32 .f32) : IVec S_ 1 :=
  let main_v0 : FVec F S16x32x32x128 .f32 := Host.absf main_arg0
  let main_cst : FVec F S_ .f32 := constant S_ .f32 0x7F800000#32
  let main_v1 : FVec F S16x32x32x128 .f32 := broadcastInDim S16x32x32x128 ![] bcast_S_S16x32x32x128 main_cst
  let main_v2 : IVec S16x32x32x128 1 := cmpf .olt main_v0 main_v1
  let main_c : IVec S_ 1 := constantI S_ 1 1#1
  let main_v3 : IVec S_ 1 := (fun x v => Host.reduce IntOp.andi x v reducesTo_S16x32x32x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x32x32x128 : Shape := ⟨4, ![16, 32, 32, 128]⟩
abbrev S32x128 : Shape := ⟨2, ![32, 128]⟩
abbrev S32 : Shape := ⟨1, ![32]⟩
abbrev S16x1024x128 : Shape := ⟨3, ![16, 1024, 128]⟩
abbrev S16x32x128 : Shape := ⟨3, ![16, 32, 128]⟩
abbrev S4x1024x128 : Shape := ⟨3, ![4, 1024, 128]⟩
abbrev S4x32x128 : Shape := ⟨3, ![4, 32, 128]⟩
abbrev S1x1024x128 : Shape := ⟨3, ![1, 1024, 128]⟩
abbrev S1024x128 : Shape := ⟨2, ![1024, 128]⟩
abbrev S128x32 : Shape := ⟨2, ![128, 32]⟩
abbrev S1024x32 : Shape := ⟨2, ![1024, 32]⟩
abbrev S1024 : Shape := ⟨1, ![1024]⟩
abbrev S1024x1 : Shape := ⟨2, ![1024, 1]⟩
abbrev S1x32 : Shape := ⟨2, ![1, 32]⟩
abbrev S32x1024 : Shape := ⟨2, ![32, 1024]⟩
abbrev S32x1 : Shape := ⟨2, ![32, 1]⟩
abbrev S1x32x128 : Shape := ⟨3, ![1, 32, 128]⟩

abbrev nBuf : Space → Nat
  | .hbm => 5
  | .vmem => 6
  | .smem => 0
  | _ => 0

abbrev bufTy : (tb : Table) → Fin (tcTables nBuf tb) → BufTy
  | .hbm, ⟨0, _⟩ => ⟨S16x32x32x128, .f32⟩
  | .hbm, ⟨1, _⟩ => ⟨S32x128, .f32⟩
  | .hbm, ⟨2, _⟩ => ⟨S32, .f32⟩
  | .hbm, ⟨3, _⟩ => ⟨S16x1024x128, .f32⟩
  | .hbm, ⟨4, _⟩ => ⟨S16x32x128, .f32⟩
  | .local _ .vmem, ⟨0, _⟩ => ⟨S4x1024x128, .f32⟩
  | .local _ .vmem, ⟨1, _⟩ => ⟨S4x1024x128, .f32⟩
  | .local _ .vmem, ⟨2, _⟩ => ⟨S32x128, .f32⟩
  | .local _ .vmem, ⟨3, _⟩ => ⟨S32, .f32⟩
  | .local _ .vmem, ⟨4, _⟩ => ⟨S4x32x128, .f32⟩
  | .local _ .vmem, ⟨5, _⟩ => ⟨S4x32x128, .f32⟩
  | _, _ => ⟨S16x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x32x32x128_S16x1024x128 : S16x32x32x128.ShapeCasts S16x1024x128
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  reduces_S32x128_S32 : S32x128.Reduces [1] S32
  bitsLt_bf16_f32 : FTy.bits .bf16 < FTy.bits .f32
  inb_S4x1024x128_S1x1024x128_0_0_0 : ∀ a, (![0, 0, 0] : Fin 3 → Nat) a + S1x1024x128.size a ≤ S4x1024x128.size a
  h_S1x1024x128 : 0 < S1x1024x128.numel
  shapeCasts_S1x1024x128_S1024x128 : S1x1024x128.ShapeCasts S1024x128
  transposes_S32x128_p1_0_S128x32 : S32x128.Transposes [1, 0] S128x32
  reduces_S1024x128_S1024 : S1024x128.Reduces [1] S1024
  shapeCasts_S1024_S1024x1 : S1024.ShapeCasts S1024x1
  shapeCasts_S32_S1x32 : S32.ShapeCasts S1x32
  broadcasts_S1024x1_S1024x32 : S1024x1.Broadcasts S1024x32
  broadcasts_S1x32_S1024x32 : S1x32.Broadcasts S1024x32
  reduces_S1024x32_S1024 : S1024x32.Reduces [1] S1024
  transposes_S1024x32_p1_0_S32x1024 : S1024x32.Transposes [1, 0] S32x1024
  reduces_S1024x32_S32 : S1024x32.Reduces [0] S32
  shapeCasts_S32_S32x1 : S32.ShapeCasts S32x1
  broadcasts_S32x1_S32x128 : S32x1.Broadcasts S32x128
  inb_S4x32x128_S1x32x128_0_0_0 : ∀ a, (![0, 0, 0] : Fin 3 → Nat) a + S1x32x128.size a ≤ S4x32x128.size a
  h_S1x32x128 : 0 < S1x32x128.numel
  shapeCasts_S1x32x128_S32x128 : S1x32x128.ShapeCasts S32x128
  shapeCasts_S32x128_S1x32x128 : S32x128.ShapeCasts S1x32x128
  inb_S4x1024x128_S1x1024x128_1_0_0 : ∀ a, (![1, 0, 0] : Fin 3 → Nat) a + S1x1024x128.size a ≤ S4x1024x128.size a
  inb_S4x32x128_S1x32x128_1_0_0 : ∀ a, (![1, 0, 0] : Fin 3 → Nat) a + S1x32x128.size a ≤ S4x32x128.size a
  inb_S4x1024x128_S1x1024x128_2_0_0 : ∀ a, (![2, 0, 0] : Fin 3 → Nat) a + S1x1024x128.size a ≤ S4x1024x128.size a
  inb_S4x32x128_S1x32x128_2_0_0 : ∀ a, (![2, 0, 0] : Fin 3 → Nat) a + S1x32x128.size a ≤ S4x32x128.size a
  inb_S4x1024x128_S1x1024x128_3_0_0 : ∀ a, (![3, 0, 0] : Fin 3 → Nat) a + S1x1024x128.size a ≤ S4x1024x128.size a
  inb_S4x32x128_S1x32x128_3_0_0 : ∀ a, (![3, 0, 0] : Fin 3 → Nat) a + S1x32x128.size a ≤ S4x32x128.size a
  dot_S1024x128_S128x32_S1024x32_1_0_0_1_n_n_wf : DotDims.WF S1024x128 S128x32 S1024x32 [1] [0] [0] [1] [] []
  dot_S32x1024_S1024x128_S32x128_1_0_0_1_n_n_wf : DotDims.WF S32x1024 S1024x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S16x1024x128.size a
  hwx0_0 : ∀ i : grid0.Coords, EltTy.bits .f32 = 32 ∨ (Rect.block (s := S16x1024x128) S4x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32x128.size a ≤ S16x32x128.size a
  hwx0_3 : ∀ i : grid0.Coords, EltTy.bits .f32 = 32 ∨ (Rect.block (s := S16x32x128) S4x32x128.size (cc0_transform_3 i) (hinb0_3 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf

abbrev win0_0 : Pipeline.Window sig grid0 :=
  Pipeline.Window.ofSpec (Memref.whole main_v0) S4x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32x32x128 : Shape := ⟨4, ![16, 32, 32, 128]⟩
abbrev S32x128 : Shape := ⟨2, ![32, 128]⟩
abbrev S32 : Shape := ⟨1, ![32]⟩
abbrev S16x1024x128 : Shape := ⟨3, ![16, 1024, 128]⟩
abbrev S_ : Shape := ⟨0, ![]⟩
abbrev S16x1024 : Shape := ⟨2, ![16, 1024]⟩
abbrev S16x1024x1 : Shape := ⟨3, ![16, 1024, 1]⟩
abbrev S16x1024x32 : Shape := ⟨3, ![16, 1024, 32]⟩
abbrev S1x1x32 : Shape := ⟨3, ![1, 1, 32]⟩
abbrev S16x32x128 : Shape := ⟨3, ![16, 32, 128]⟩
abbrev S16x32 : Shape := ⟨2, ![16, 32]⟩
abbrev S16x32x1 : Shape := ⟨3, ![16, 32, 1]⟩
abbrev S1x32x128 : Shape := ⟨3, ![1, 32, 128]⟩

abbrev nBuf : Space → Nat
  | .hbm => 46
  | .vmem => 0
  | .smem => 0
  | _ => 0

abbrev bufTy : (tb : Table) → Fin (tcTables nBuf tb) → BufTy
  | .hbm, ⟨0, _⟩ => ⟨S16x32x32x128, .f32⟩
  | .hbm, ⟨1, _⟩ => ⟨S32x128, .f32⟩
  | .hbm, ⟨2, _⟩ => ⟨S32, .f32⟩
  | .hbm, ⟨3, _⟩ => ⟨S16x1024x128, .f32⟩
  | .hbm, ⟨4, _⟩ => ⟨S16x1024x128, .f32⟩
  | .hbm, ⟨5, _⟩ => ⟨S_, .f32⟩
  | .hbm, ⟨6, _⟩ => ⟨S16x1024, .f32⟩
  | .hbm, ⟨7, _⟩ => ⟨S16x1024x1, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S16x1024x32, .f32⟩
  | .hbm, ⟨12, _⟩ => ⟨S1x1x32, .f32⟩
  | .hbm, ⟨13, _⟩ => ⟨S_, .f32⟩
  | .hbm, ⟨14, _⟩ => ⟨S16x1024x32, .f32⟩
  | .hbm, ⟨15, _⟩ => ⟨S16x1024x32, .f32⟩
  | .hbm, ⟨16, _⟩ => ⟨S16x1024x32, .f32⟩
  | .hbm, ⟨17, _⟩ => ⟨S16x1024x32, .f32⟩
  | .hbm, ⟨18, _⟩ => ⟨S1x1x32, .f32⟩
  | .hbm, ⟨19, _⟩ => ⟨S16x1024x32, .f32⟩
  | .hbm, ⟨20, _⟩ => ⟨S16x1024x32, .f32⟩
  | .hbm, ⟨21, _⟩ => ⟨S16x1024x32, .f32⟩
  | .hbm, ⟨22, _⟩ => ⟨S16x1024x32, .f32⟩
  | .hbm, ⟨23, _⟩ => ⟨S_, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024x1, .f32⟩
  | .hbm, ⟨29, _⟩ => ⟨S16x1024x32, .f32⟩
  | .hbm, ⟨30, _⟩ => ⟨S16x1024x32, .f32⟩
  | .hbm, ⟨31, _⟩ => ⟨S16x1024x32, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x32, .f32⟩
  | .hbm, ⟨36, _⟩ => ⟨S16x1024x32, .f32⟩
  | .hbm, ⟨37, _⟩ => ⟨S16x32x128, .f32⟩
  | .hbm, ⟨38, _⟩ => ⟨S_, .f32⟩
  | .hbm, ⟨39, _⟩ => ⟨S16x32, .f32⟩
  | .hbm, ⟨40, _⟩ => ⟨S16x32x1, .f32⟩
  | .hbm, ⟨41, _⟩ => ⟨S1x32x128, .f32⟩
  | .hbm, ⟨42, _⟩ => ⟨S16x32x128, .f32⟩
  | .hbm, ⟨43, _⟩ => ⟨S16x32x128, .f32⟩
  | .hbm, ⟨44, _⟩ => ⟨S16x32x128, .f32⟩
  | .hbm, ⟨45, _⟩ => ⟨S16x32x128, .f32⟩
  | _, _ => ⟨S16x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  shapeCasts_S16x32x32x128_S16x1024x128 : S16x32x32x128.ShapeCasts S16x1024x128
  reducesTo_S16x1024x128_S16x1024_d2 : S16x1024x128.ReducesTo [2] S16x1024
  h_S_ : 0 < S_.numel
  bcast_S16x1024_S16x1024x1_0_1 : S16x1024.BroadcastsInDim S16x1024x1 (![0, 1] : Fin 2 → Fin S16x1024x1.rank)
  reducesTo_S32x128_S32_d1 : S32x128.ReducesTo [1] S32
  bcast_S32_S1x1x32_2 : S32.BroadcastsInDim S1x1x32 (![2] : Fin 1 → Fin S1x1x32.rank)
  bcast_S_S16x1024x32 : S_.BroadcastsInDim S16x1024x32 (![] : Fin 0 → Fin S16x1024x32.rank)
  bcast_S16x1024x1_S16x1024x32_0_1_2 : S16x1024x1.BroadcastsInDim S16x1024x32 (![0, 1, 2] : Fin 3 → Fin S16x1024x32.rank)
  bcast_S1x1x32_S16x1024x32_0_1_2 : S1x1x32.BroadcastsInDim S16x1024x32 (![0, 1, 2] : Fin 3 → Fin S16x1024x32.rank)
  reducesTo_S16x1024x32_S16x1024_d2 : S16x1024x32.ReducesTo [2] S16x1024
  bcast_S_S16x1024 : S_.BroadcastsInDim S16x1024 (![] : Fin 0 → Fin S16x1024.rank)
  reducesTo_S16x1024x32_S16x32_d1 : S16x1024x32.ReducesTo [1] S16x32
  bcast_S16x32_S16x32x1_0_1 : S16x32.BroadcastsInDim S16x32x1 (![0, 1] : Fin 2 → Fin S16x32x1.rank)
  bcast_S32x128_S1x32x128_1_2 : S32x128.BroadcastsInDim S1x32x128 (![1, 2] : Fin 2 → Fin S1x32x128.rank)
  bcast_S16x32x1_S16x32x128_0_1_2 : S16x32x1.BroadcastsInDim S16x32x128 (![0, 1, 2] : Fin 3 → Fin S16x32x128.rank)
  bcast_S1x32x128_S16x32x128_0_1_2 : S1x32x128.BroadcastsInDim S16x32x128 (![0, 1, 2] : Fin 3 → Fin S16x32x128.rank)
  dot_S16x1024x128_S32x128_S16x1024x32_2_1_01_0_n_n_wf : DotDims.WF S16x1024x128 S32x128 S16x1024x32 [2] [1] [0, 1] [0] [] []
  dot_S16x1024x32_S16x1024x128_S16x32x128_1_1_2_2_0_0_wf : DotDims.WF S16x1024x32 S16x1024x128 S16x32x128 [1] [1] [2] [2] [0] [0]

variable [Facts₀]

def dot_S16x1024x128_S32x128_S16x1024x32_2_1_01_0_n_n : DotDims S16x1024x128 S32x128 S16x1024x32 where
  lhsContracting := [2]
  rhsContracting := [1]
  lhsNonContracting := [0, 1]
  rhsNonContracting := [0]
  lhsBatch := []
  rhsBatch := []
  wf := dot_S16x1024x128_S32x128_S16x1024x32_2_1_01_0_n_n_wf
def dot_S16x1024x32_S16x1024x128_S16x32x128_1_1_2_2_0_0 : DotDims S16x1024x32 S16x1024x128 S16x32x128 where
  lhsContracting := [1]
  rhsContracting := [1]
  lhsNonContracting := [2]
  rhsNonContracting := [2]
  lhsBatch := [0]
  rhsBatch := [0]
  wf := dot_S16x1024x32_S16x1024x128_S16x32x128_1_1_2_2_0_0_wf

class Facts : Prop extends Facts₀ where

variable [Facts]
-- ==== Proof.Spec.lean ====
/-
  The encoding layer as one function of its three arguments, on the extended reals.

  For one image (a family of `N` descriptors `X n` of width `D`), `K` codewords `C k` and a smoothing factor
  `s k` per codeword:
  * the scaled squared distance of descriptor `n` to codeword `k`, expanded:
    `L n k = s k · (‖X n‖² − 2 · ⟨X n, C k⟩ + ‖C k‖²)`;
  * the soft assignment of descriptor `n`: the exponentials of `L n ·` after the row's greatest entry is taken
    off, divided by their sum (`weight`);
  * the aggregated residual `E k d = ∑ₙ A n k · X n d − (∑ₙ A n k) · C k d`.
  The squared norms of the codewords and the codewords entering the inner products are kept as separate arguments
  (`encodeWith`) so that a computation which prepares them ahead of the descriptors can be read against the same
  function; `encode` is the instance where they are what their names say.  Nothing here asks an entry to be finite.
-/
import Idealize.ShloMosaic.PureOps.Ideal
import Idealize.ShloMosaic.Lib.ValueIdx

noncomputable section

open scoped BigOperators

namespace Cert.Encoding

open Idealize.ShloMosaic Idealize.ShloMosaic.ValueIdx

variable {N D K : Nat}

/-- The single-precision words of `2` and of `−∞`, read on the extended reals (never evaluated: both sides carry
    the same words). -/
def two : EReal := Ideal.ofBits .f32 0x40000000#32
def negInf : EReal := Ideal.ofBits .f32 0xFF800000#32

/-- `s k · (‖X n‖² − 2 · ⟨X n, B k⟩ + q k)`: the scaled squared distance, with the codeword norms `q` given. -/
def logit (X : Fin N → Fin D → EReal) (B : Fin K → Fin D → EReal) (q s : Fin K → EReal) (n : Fin N) (k : Fin K) : EReal :=
  s k * ((∑ d, X n d * X n d) - two * (∑ d, X n d * B k d) + q k)

/-- The greatest entry of row `n`, folded from `−∞` (and compared with `−∞` once more, as both programs do). -/
def rowTop (L : Fin N → Fin K → EReal) (n : Fin N) : EReal :=
  max negInf ((Finset.univ : Finset (Fin K)).fold max negInf fun k => L n k)

/-- The soft assignment weights: each row's exponentials, its greatest entry taken off, over their sum. -/
def weight (L : Fin N → Fin K → EReal) (n : Fin N) (k : Fin K) : EReal :=
  Ideal.div (Ideal.exp (L n k - rowTop L n)) (∑ k', Ideal.exp (L n k' - rowTop L n))

/-- The aggregated residuals from given weights. -/
def aggregate (A : Fin N → Fin K → EReal) (X : Fin N → Fin D → EReal) (C : Fin K → Fin D → EReal) (k : Fin K) (d : Fin D) : EReal :=
  (∑ n, A n k * X n d) - (∑ n, A n k) * C k d

/-- The layer with the prepared codeword data as arguments. -/
def encodeWith (X : Fin N → Fin D → EReal) (C B : Fin K → Fin D → EReal) (q s : Fin K → EReal) (k : Fin K) (d : Fin D) : EReal :=
  aggregate (weight (logit X B q s)) X C k d

/-- The layer: the codeword norms are the codewords' own. -/
def encode (X : Fin N → Fin D → EReal) (C : Fin K → Fin D → EReal) (s : Fin K → EReal) (k : Fin K) (d : Fin D) : EReal :=
  encodeWith X C C (fun k => ∑ d, C k d * C k d) s k d

/-- `encode` of equal data at equal positions. -/
theorem encode_congr {X X' : Fin N → Fin D → EReal} {C C' : Fin K → Fin D → EReal} {s s' : Fin K → EReal} {k k' : Fin K}
    {d d' : Fin D} (hX : X = X') (hC : C = C') (hs : s = s') (hk : k = k') (hd : d = d') :
    encode X C s k d = encode X' C' s' k' d' := by
  subst hX hC hs hk hd; rfl

/-! ## The whole batch -/

/-- The batch of 16 images, each of 1024 descriptors of width 128, against 32 codewords: image `b` of the result
    is image `b` encoded.  The arrays are indexed through their literal shapes. -/
def encodeAll (X : (⟨3, ![16, 1024, 128]⟩ : Shape).Idx → EReal) (C : (⟨2, ![32, 128]⟩ : Shape).Idx → EReal)
    (s : (⟨1, ![32]⟩ : Shape).Idx → EReal) : (⟨3, ![16, 32, 128]⟩ : Shape).Idx → EReal :=
  fun i => encode (fun n d => X (ix3 (i 0) n d)) (fun k d => C (ix2 k d)) (fun k => s (ix1 k)) (i 1) (i 2)

/-- The same from the feature map as it is given, [16, 32, 32, 128]: its 32 × 32 positions are the image's 1024
    descriptors in row-major order. -/
def encodeArgs (a0 : (⟨4, ![16, 32, 32, 128]⟩ : Shape).Idx → EReal) (a1 : (⟨2, ![32, 128]⟩ : Shape).Idx → EReal)
    (a2 : (⟨1, ![32]⟩ : Shape).Idx → EReal) : (⟨3, ![16, 32, 128]⟩ : Shape).Idx → EReal :=
  encodeAll (shapeCast ⟨3, ![16, 1024, 128]⟩ a0 (by decide)) a1 a2

end Cert.Encoding

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibWordAccumulators.lean ====
/-
  Reductions of a single-precision matrix whose accumulator is a WRITTEN-OUT word, read at an index, on the
  extended reals (general: any extents).

  A printed reduction carries, as its evidence that the accumulator is the operation's neutral element, a proof of
  an equation between two numerals (`0x00000000#32 = 0x00000000#32`, `0xFF800000#32 = 0xFF800000#32`).  The lemmas
  here are stated with the evidence typed exactly so, and therefore rewrite such a term where it stands:
  * `laneSum_zero_apply`: the sum along the rows of an [a, b] matrix from the zero word, read at row `i`, is the sum
    of row `i`;
  * `rowsSum_zero_apply`: the sum over the row axis from the zero word, read at column `j`, is the sum of column `j`;
  * `laneMax_negInf_apply`: the maximum along the rows from the word of `−∞`, read at row `i`, is the fold of `max`
    from that word's value over row `i`.
-/
import Idealize.ShloMosaic.PureOps.Ideal.Laws
import Idealize.ShloMosaic.Lib.ValueIdx

noncomputable section

open scoped BigOperators

open Idealize.ShloMosaic Idealize.ShloMosaic.ValueIdx

namespace Cert.WordAccumulators

/-- The sum of an `a × b` matrix along its rows from the zero word, read at `i`: the sum of row `i`. -/
theorem laneSum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  show (∑ k : Fin b, src (h.lift (ix1 i) k)) = _
  refine Finset.sum_congr rfl fun k _ => congrArg src ?_
  funext d; apply Fin.ext
  match d with
  | ⟨0, _⟩ => rfl
  | ⟨1, _⟩ => rfl

/-- The sum of an `a × b` matrix over its row axis from the zero word, read at column `j`: the sum of column `j`. -/
theorem rowsSum_zero_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  show (∑ r : Fin a, src (h.lift (ix1 j) r)) = _
  refine Finset.sum_congr rfl fun r _ => congrArg src ?_
  funext d; apply Fin.ext
  match d with
  | ⟨0, _⟩ => rfl
  | ⟨1, _⟩ => rfl

/-- The maximum of an `a × b` matrix along its rows from the word of `−∞`, read at `i`: the fold of `max`, from that
    word's value, over row `i`. -/
theorem laneMax_negInf_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  show (Finset.univ : Finset (Fin b)).fold max (Ideal.ofBits .f32 0xFF800000#32) (fun k => src (h.lift (ix1 i) k)) = _
  refine congrArg (fun f => Finset.fold max (Ideal.ofBits .f32 0xFF800000#32) f (Finset.univ : Finset (Fin b))) ?_
  funext k
  refine congrArg src ?_
  funext d; apply Fin.ext
  match d with
  | ⟨0, _⟩ => rfl
  | ⟨1, _⟩ => rfl

end Cert.WordAccumulators

end
-- ==== Proof.KernelBatch.lean ====
/-
  One image of the kernel's block, read at an entry.

  For each of the four images of a block the body computes, from the image's 1024 descriptors `X` (a [1024, 128]
  matrix), the resident codewords and smoothing factors, three matrices in turn:
  * the scaled squared distances `L` ([1024, 32]): the row sums of `X ∘ X` spread along the rows, minus twice
    the product of `X` with the transposed codewords, plus the codewords' squared norms spread down the rows, all
    times the factors spread down the rows (`logitsV`);
  * the soft assignment `A` ([1024, 32]): the exponentials of `L` minus its row maxima, over their row sums
    (`weightsV`);
  * the residuals ([32, 128]): the product of `A` transposed with `X`, minus the column sums of `A` spread along
    the rows times the codewords (`codeV`).
  Each is read at an entry `(row, column)` as the specification's function of the operands' entries; the narrowing of
  a product's operands is the identity on the extended reals.  The four per-image payloads of the body are this one
  composition (`pay6_eq`, `pay4_eq`, `pay8_eq`, `pay1_eq`).
-/
import proofs.«158125_j88699664597510_2_alg».proof.Proof.Gen.KernelIdeal.Skeleton
import proofs.«158125_j88699664597510_2_alg».proof.Proof.Spec
import proofs.«158125_j88699664597510_2_alg».proof.Proof.LibMatRows
import proofs.«158125_j88699664597510_2_alg».proof.Proof.LibWordAccumulators
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Batch

open Cert.KernelIdeal Cert.KernelIdeal.Gen Idealize.ShloMosaic Idealize.ShloMosaic.ValueIdx Cert.Encoding

/-! ## The two matrix products, read at an entry -/

/-- Descriptors times transposed codewords: entry `(n, k)` is the sum over the 128 features. -/
theorem cross_apply (A : FVec Ideal S1024x128 .bf16) (Bt : FVec Ideal S128x32 .bf16) (n : Fin 1024) (k : Fin 32) :
    matmul dot_S1024x128_S128x32_S1024x32_1_0_0_1_n_n none A Bt (constant S1024x32 .f32 0x00000000#32) (ix2 n k)
      = ∑ d : Fin 128, A (ix2 n d) * Bt (ix2 d k) :=
  MatRows.matmul_zero_apply dot_S1024x128_S128x32_S1024x32_1_0_0_1_n_n rfl rfl
    (fun j q => by
      unfold DotDims.lhsIdx
      rw [dif_neg (show ¬(0 : Fin S1024x128.rank) ∈ dot_S1024x128_S128x32_S1024x32_1_0_0_1_n_n.lhsBatch by decide),
        dif_pos (show (0 : Fin S1024x128.rank) ∈ dot_S1024x128_S128x32_S1024x32_1_0_0_1_n_n.lhsNonContracting by decide)]
      rfl)
    (fun j q => dot_S1024x128_S128x32_S1024x32_1_0_0_1_n_n.lhsIdx_val_of_single rfl j q)
    (fun j q => dot_S1024x128_S128x32_S1024x32_1_0_0_1_n_n.rhsIdx_val_of_single rfl j q)
    (fun j q => by
      unfold DotDims.rhsIdx
      rw [dif_neg (show ¬(1 : Fin S128x32.rank) ∈ dot_S1024x128_S128x32_S1024x32_1_0_0_1_n_n.rhsBatch by decide),
        dif_pos (show (1 : Fin S128x32.rank) ∈ dot_S1024x128_S128x32_S1024x32_1_0_0_1_n_n.rhsNonContracting by decide)]
      rfl)
    A Bt n k

/-- Transposed weights times descriptors: entry `(k, d)` is the sum over the 1024 descriptors. -/
theorem gather_apply (At : FVec Ideal S32x1024 .bf16) (X : FVec Ideal S1024x128 .bf16) (k : Fin 32) (d : Fin 128) :
    matmul dot_S32x1024_S1024x128_S32x128_1_0_0_1_n_n none At X (constant S32x128 .f32 0x00000000#32) (ix2 k d)
      = ∑ n : Fin 1024, At (ix2 k n) * X (ix2 n d) :=
  MatRows.matmul_zero_apply dot_S32x1024_S1024x128_S32x128_1_0_0_1_n_n rfl rfl
    (fun j q => by
      unfold DotDims.lhsIdx
      rw [dif_neg (show ¬(0 : Fin S32x1024.rank) ∈ dot_S32x1024_S1024x128_S32x128_1_0_0_1_n_n.lhsBatch by decide),
        dif_pos (show (0 : Fin S32x1024.rank) ∈ dot_S32x1024_S1024x128_S32x128_1_0_0_1_n_n.lhsNonContracting by decide)]
      rfl)
    (fun j q => dot_S32x1024_S1024x128_S32x128_1_0_0_1_n_n.lhsIdx_val_of_single rfl j q)
    (fun j q => dot_S32x1024_S1024x128_S32x128_1_0_0_1_n_n.rhsIdx_val_of_single rfl j q)
    (fun j q => by
      unfold DotDims.rhsIdx
      rw [dif_neg (show ¬(1 : Fin S1024x128.rank) ∈ dot_S32x1024_S1024x128_S32x128_1_0_0_1_n_n.rhsBatch by decide),
        dif_pos (show (1 : Fin S1024x128.rank) ∈ dot_S32x1024_S1024x128_S32x128_1_0_0_1_n_n.rhsNonContracting by decide)]
      rfl)
    At X k d

/-! ## The scaled squared distances -/

/-- The [1024, 32] matrix of scaled squared distances, as the body builds it from the image's descriptors `X`, the
    factors `sc`, the codewords' squared norms `q` and the narrowed codewords `B`. -/
def logitsV (X : FVec Ideal S1024x128 .f32) (sc : Vec Ideal S32 .f32) (q : FVec Ideal S32 .f32) (B : FVec Ideal S32x128 .bf16) :
    FVec Ideal S1024x32 .f32 :=
  mulf (broadcastTo S1024x32 (shapeCast S1x32 sc shapeCasts_S32_S1x32) broadcasts_S1x32_S1024x32)
    (addf
      (subf
        (broadcastTo S1024x32
          (shapeCast S1024x1 (multiReduction .add [1] S1024 (mulf X X) 0x00000000#32 reduces_S1024x128_S1024 (.inl rfl) rfl)
            shapeCasts_S1024_S1024x1) broadcasts_S1024x1_S1024x32)
        (mulf (broadcast S1024x32 (Scalar.ofBits .f32 0x40000000#32))
          (matmul dot_S1024x128_S128x32_S1024x32_1_0_0_1_n_n none (truncf .bf16 X bitsLt_bf16_f32)
            (transpose S128x32 [1, 0] B transposes_S32x128_p1_0_S128x32) (constant S1024x32 .f32 0x00000000#32))))
      (broadcastTo S1024x32 (shapeCast S1x32 q shapeCasts_S32_S1x32) broadcasts_S1x32_S1024x32))

theorem logitsV_apply (X : FVec Ideal S1024x128 .f32) (sc : Vec Ideal S32 .f32) (q : FVec Ideal S32 .f32)
    (B : FVec Ideal S32x128 .bf16) (n : Fin 1024) (k : Fin 32) :
    logitsV X sc q B (ix2 n k)
      = logit (fun n d => X (ix2 n d)) (fun k d => B (ix2 k d)) (fun k => q (ix1 k)) (fun k => sc (ix1 k)) n k := by
  unfold logitsV logit
  rw [mulf_apply, addf_apply, subf_apply, mulf_apply, broadcast_apply]
  rw [broadcastTo_1b_ab_apply, shapeCast_a_1a_apply]
  rw [MatRows.colBroadcast_apply, MatRows.colCast_apply, WordAccumulators.laneSum_zero_apply]
  rw [cross_apply]
  rw [broadcastTo_1b_ab_apply, shapeCast_a_1a_apply]
  have ht : ∀ d : Fin 128, transpose S128x32 [1, 0] B transposes_S32x128_p1_0_S128x32 (ix2 d k) = B (ix2 k d) :=
    fun d => transpose_ix2_apply B transposes_S32x128_p1_0_S128x32 d k
  simp only [mulf_apply, truncf_apply, ht]
  rfl

/-! ## The soft assignment -/

/-- Each row's greatest entry (a [1024] vector). -/
def topV (L : FVec Ideal S1024x32 .f32) : FVec Ideal S1024 .f32 :=
  maximumf (broadcast S1024 (Scalar.ofBits .f32 0xFF800000#32))
    (multiReduction .maximumf [1] S1024 L 0xFF800000#32 reduces_S1024x32_S1024 (.inl rfl) rfl)

/-- The exponentials of the entries, the row's greatest entry taken off. -/
def expV (L : FVec Ideal S1024x32 .f32) : FVec Ideal S1024x32 .f32 :=
  exp (subf L (broadcastTo S1024x32 (shapeCast S1024x1 (topV L) shapeCasts_S1024_S1024x1) broadcasts_S1024x1_S1024x32))

/-- … divided by their row sums. -/
def weightsV (L : FVec Ideal S1024x32 .f32) : FVec Ideal S1024x32 .f32 :=
  divf (expV L)
    (broadcastTo S1024x32
      (shapeCast S1024x1 (multiReduction .add [1] S1024 (expV L) 0x00000000#32 reduces_S1024x32_S1024 (.inl rfl) rfl)
        shapeCasts_S1024_S1024x1) broadcasts_S1024x1_S1024x32)

theorem topV_apply (L : FVec Ideal S1024x32 .f32) (n : Fin 1024) :
    topV L (ix1 n) = rowTop (fun n k => L (ix2 n k)) n := by
  unfold topV rowTop
  rw [maximumf_apply, broadcast_apply, WordAccumulators.laneMax_negInf_apply]
  rfl

theorem expV_apply (L : FVec Ideal S1024x32 .f32) (n : Fin 1024) (k : Fin 32) :
    expV L (ix2 n k) = Ideal.exp (L (ix2 n k) - rowTop (fun n k => L (ix2 n k)) n) := by
  unfold expV
  show Ideal.exp (L (ix2 n k) - broadcastTo S1024x32 (shapeCast S1024x1 (topV L) shapeCasts_S1024_S1024x1) broadcasts_S1024x1_S1024x32 (ix2 n k)) = _
  rw [MatRows.colBroadcast_apply, MatRows.colCast_apply, topV_apply]

theorem weightsV_apply (L : FVec Ideal S1024x32 .f32) (n : Fin 1024) (k : Fin 32) :
    weightsV L (ix2 n k) = weight (fun n k => L (ix2 n k)) n k := by
  unfold weightsV weight
  rw [divf_apply, MatRows.colBroadcast_apply, MatRows.colCast_apply, WordAccumulators.laneSum_zero_apply]
  simp only [expV_apply]

/-! ## The aggregated residuals -/

/-- The [32, 128] matrix of residuals from the weights `A`, the descriptors `X` and the codewords `cw`. -/
def codeV (A : FVec Ideal S1024x32 .f32) (X : FVec Ideal S1024x128 .f32) (cw : Vec Ideal S32x128 .f32) : FVec Ideal S32x128 .f32 :=
  subf
    (matmul dot_S32x1024_S1024x128_S32x128_1_0_0_1_n_n none
      (transpose S32x1024 [1, 0] (truncf .bf16 A bitsLt_bf16_f32) transposes_S1024x32_p1_0_S32x1024)
      (truncf .bf16 X bitsLt_bf16_f32) (constant S32x128 .f32 0x00000000#32))
    (mulf
      (broadcastTo S32x128
        (shapeCast S32x1 (multiReduction .add [0] S32 A 0x00000000#32 reduces_S1024x32_S32 (.inl rfl) rfl) shapeCasts_S32_S32x1)
        broadcasts_S32x1_S32x128)
      cw)

theorem codeV_apply (A : FVec Ideal S1024x32 .f32) (X : FVec Ideal S1024x128 .f32) (cw : Vec Ideal S32x128 .f32)
    (k : Fin 32) (d : Fin 128) :
    codeV A X cw (ix2 k d)
      = aggregate (fun n k => A (ix2 n k)) (fun n d => X (ix2 n d)) (fun k d => cw (ix2 k d)) k d := by
  unfold codeV aggregate
  rw [subf_apply, mulf_apply, gather_apply, MatRows.colBroadcast_apply, MatRows.colCast_apply, WordAccumulators.rowsSum_zero_apply]
  have ht : ∀ n : Fin 1024, transpose S32x1024 [1, 0] (truncf .bf16 A bitsLt_bf16_f32) transposes_S1024x32_p1_0_S32x1024 (ix2 k n)
      = A (ix2 n k) :=
    fun n => transpose_ix2_apply (truncf .bf16 A bitsLt_bf16_f32) transposes_S1024x32_p1_0_S32x1024 k n
  simp only [ht, truncf_apply]

/-! ## One image -/

/-- One image's residuals, from the image's block `X` ([1, 1024, 128]) and the resident operands. -/
def imageV (cw : Vec Ideal S32x128 .f32) (sc : Vec Ideal S32 .f32) (q : FVec Ideal S32 .f32) (B : FVec Ideal S32x128 .bf16)
    (X : Vec Ideal S1x1024x128 .f32) : FVec Ideal S32x128 .f32 :=
  codeV (weightsV (logitsV (shapeCast S1024x128 X shapeCasts_S1x1024x128_S1024x128) sc q B))
    (shapeCast S1024x128 X shapeCasts_S1x1024x128_S1024x128) cw

theorem imageV_apply (cw : Vec Ideal S32x128 .f32) (sc : Vec Ideal S32 .f32) (q : FVec Ideal S32 .f32) (B : FVec Ideal S32x128 .bf16)
    (X : Vec Ideal S1x1024x128 .f32) (k : Fin 32) (d : Fin 128) :
    imageV cw sc q B X (ix2 k d)
      = encodeWith (fun n d => X (ix3 (0 : Fin 1) n d)) (fun k d => cw (ix2 k d)) (fun k d => B (ix2 k d))
          (fun k => q (ix1 k)) (fun k => sc (ix1 k)) k d := by
  unfold imageV encodeWith
  rw [codeV_apply]
  have hw : (fun n k => weightsV (logitsV (shapeCast S1024x128 X shapeCasts_S1x1024x128_S1024x128) sc q B) (ix2 n k))
      = weight (logit (fun n d => X (ix3 (0 : Fin 1) n d)) (fun k d => B (ix2 k d)) (fun k => q (ix1 k)) (fun k => sc (ix1 k))) := by
    funext n k
    rw [weightsV_apply]
    refine congrArg (fun L => weight L n k) ?_
    funext n k
    rw [logitsV_apply]
    refine congrArg (fun Y => logit Y _ _ _ n k) ?_
    funext n d
    exact shapeCast_1ab_ab_apply X shapeCasts_S1x1024x128_S1024x128 n d
  have hx : (fun n d => shapeCast S1024x128 X shapeCasts_S1x1024x128_S1024x128 (ix2 n d)) = fun n d => X (ix3 (0 : Fin 1) n d) := by
    funext n d
    exact shapeCast_1ab_ab_apply X shapeCasts_S1x1024x128_S1024x128 n d
  rw [hw, hx]

/-! ## The body's payloads are this composition -/

theorem pay6_eq (cw : Vec Ideal S32x128 .f32) (sc : Vec Ideal S32 .f32) (q : FVec Ideal S32 .f32) (B : FVec Ideal S32x128 .bf16)
    (X : Vec Ideal S1x1024x128 .f32) : k0_pay6 cw sc q B X = imageV cw sc q B X := rfl

theorem pay4_eq (cw : Vec Ideal S32x128 .f32) (sc : Vec Ideal S32 .f32) (X : Vec Ideal S1x1024x128 .f32) :
    k0_pay4 cw sc X = imageV cw sc (k0_pay2 cw) (k0_pay3 cw) X := rfl

theorem pay8_eq (cw : Vec Ideal S32x128 .f32) (sc : Vec Ideal S32 .f32) (q : FVec Ideal S32 .f32) (B : FVec Ideal S32x128 .bf16)
    (X : Vec Ideal S1x1024x128 .f32) :
    k0_pay8 cw sc q B X = shapeCast S1x32x128 (imageV cw sc q B X) shapeCasts_S32x128_S1x32x128 := rfl

theorem pay1_eq (cw : Vec Ideal S32x128 .f32) (sc : Vec Ideal S32 .f32) (q : FVec Ideal S32 .f32) (B : FVec Ideal S32x128 .bf16)
    (X : Vec Ideal S1x1024x128 .f32) :
    k0_pay1 cw sc q B X = shapeCast S1x32x128 (imageV cw sc q B X) shapeCasts_S32x128_S1x32x128 := rfl

/-- The codewords' squared norms as the body prepares them, read at `k`. -/
theorem pay2_apply (cw : Vec Ideal S32x128 .f32) (k : Fin 32) :
    k0_pay2 cw (ix1 k) = ∑ d : Fin 128, cw (ix2 k d) * cw (ix2 k d) := by
  unfold k0_pay2
  rw [WordAccumulators.laneSum_zero_apply]
  rfl

/-- The narrowed codewords are the codewords. -/
theorem pay3_apply (cw : Vec Ideal S32x128 .f32) (i : S32x128.Idx) : k0_pay3 cw i = cw i := rfl

end Cert.KernelIdeal.Batch

end
-- ==== Proof.KernelBlocks.lean ====
/-
  From the kernel's blocks to its result array.

  Grid point `t` (of 4) works on images `4t … 4t + 3`: it loads their descriptors as a [4, 1024, 128] block, the
  codewords and the factors whole, and stores the four images' residuals, one [1, 32, 128] piece each, into a
  [4, 32, 128] block that is written back as rows `4t … 4t + 3` of the result.  Every piece is the same function of
  its image (`KernelBatch`), so the block after the body is ONE function of the loaded blocks, index by index
  (`out_eq`); read through the windows' rectangles, block `t` of the result is block `t` of the specification applied to
  the argument arrays (`flushed_eq`); the four blocks tile the result (`covered`), which therefore ends holding the
  specification (`final`, `run`).  The descriptors reach the kernel through a reshape of the feature map, made by the
  host before the call (`entry_main_v0`).
-/
import proofs.«158125_j88699664597510_2_alg».proof.Proof.Gen.KernelIdeal.Value
import proofs.«158125_j88699664597510_2_alg».proof.Proof.KernelBatch
import Idealize.ShloMosaic.Lib.StableHlo.Run
import Idealize.ShloMosaic.Lib.Tactic

set_option maxRecDepth 16384

noncomputable section

open scoped BigOperators

namespace Cert.KernelIdeal.Blocks

open Cert.KernelIdeal Cert.KernelIdeal.Gen Cert.KernelIdeal.Batch Idealize.ShloMosaic Idealize.ShloMosaic.TcCoe Idealize.SL.Sem
open Idealize.ShloMosaic.ValueIdx Cert.Encoding
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## One image of a block -/

/-- Image `b` of a block, loaded through its rectangle and encoded with the norms and the narrowed codewords the
    body prepares, is the specification of image `b`. -/
theorem image_at (x0 : Vec Ideal S4x1024x128 .f32) (cw : Vec Ideal S32x128 .f32) (sc : Vec Ideal S32 .f32) (b : Fin 4)
    (inb : ∀ a, (![b.val, 0, 0] : Fin 3 → Nat) a + S1x1024x128.size a ≤ S4x1024x128.size a) (k : Fin 32) (d : Fin 128) :
    imageV cw sc (k0_pay2 cw) (k0_pay3 cw) (View.ld x0 (Rect.unit (s := S4x1024x128) ![b.val, 0, 0] S1x1024x128.size inb)) (ix2 k d)
      = encode (fun n d => x0 (ix3 b n d)) (fun k d => cw (ix2 k d)) (fun k => sc (ix1 k)) k d := by
  rw [imageV_apply]
  unfold encode
  have h1 : (fun (n : Fin 1024) (d : Fin 128) =>
        View.ld x0 (Rect.unit (s := S4x1024x128) ![b.val, 0, 0] S1x1024x128.size inb) (ix3 (0 : Fin 1) n d))
      = fun n d => x0 (ix3 b n d) := by
    funext n d
    show x0 _ = x0 _
    refine congrArg x0 ?_
    funext a; apply Fin.ext
    match a with
    | ⟨0, _⟩ => show b.val + 1 * 0 = b.val; omega
    | ⟨1, _⟩ => show 0 + 1 * n.val = n.val; omega
    | ⟨2, _⟩ => show 0 + 1 * d.val = d.val; omega
  have h2 : (fun k : Fin 32 => k0_pay2 cw (ix1 k)) = fun k => ∑ d : Fin 128, cw (ix2 k d) * cw (ix2 k d) :=
    funext fun k => pay2_apply cw k
  rw [h1, h2]
  rfl

/-! ## The block after the body -/

/-- The block the body leaves, as one function of the loaded blocks: position `(b, k, d)` is image `b` of the
    descriptors' block encoded, at `(k, d)`. -/
def blockG (x0 : Vec Ideal S4x1024x128 .f32) (x1 : Vec Ideal S32x128 .f32) (x2 : Vec Ideal S32 .f32) : S4x32x128.Idx → EReal :=
  fun y => encode (fun n d => x0 (ix3 (y 0) n d)) (fun k d => x1 (ix2 k d)) (fun k => x2 (ix1 k)) (y 1) (y 2)

/-- The piece stored for image `b`, at its local position, is `blockG` at the position's place in the block. -/
theorem piece_eq (x0 : Vec Ideal S4x1024x128 .f32) (x1 : Vec Ideal S32x128 .f32) (x2 : Vec Ideal S32 .f32) (b : Fin 4)
    (inbX : ∀ a, (![b.val, 0, 0] : Fin 3 → Nat) a + S1x1024x128.size a ≤ S4x1024x128.size a)
    (inbO : ∀ a, (![b.val, 0, 0] : Fin 3 → Nat) a + S1x32x128.size a ≤ S4x32x128.size a) (x : S1x32x128.Idx) :
    shapeCast S1x32x128
        (imageV x1 x2 (k0_pay2 x1) (k0_pay3 x1) (View.ld x0 (Rect.unit (s := S4x1024x128) ![b.val, 0, 0] S1x1024x128.size inbX)))
        shapeCasts_S32x128_S1x32x128 x
      = blockG x0 x1 x2 ((Rect.unit (s := S4x32x128) ![b.val, 0, 0] S1x32x128.size inbO).emb x) := by
  obtain ⟨u, k, d, rfl⟩ : ∃ (u : Fin 1) (k : Fin 32) (d : Fin 128), x = ix3 u k d := ⟨x 0, x 1, x 2, eq_ix3 x⟩
  rw [shapeCast_ab_1ab_apply, image_at]
  unfold blockG
  have hu : u.val = 0 := by have := u.isLt; omega
  refine encode_congr ?_ rfl rfl ?_ ?_
  · funext n d'
    refine congrArg (fun q : Fin 4 => x0 (ix3 q n d')) ?_
    apply Fin.ext
    show b.val = b.val + 1 * u.val
    omega
  · apply Fin.ext
    show k.val = 0 + 1 * k.val
    omega
  · apply Fin.ext
    show d.val = 0 + 1 * d.val
    omega

/-- The block after the body is `blockG` of the loaded blocks. -/
theorem out_eq (x0 : Vec Ideal S4x1024x128 .f32) (x1 : Vec Ideal S32x128 .f32) (x2 : Vec Ideal S32 .f32) :
    out0_3 x0 x1 x2 = blockG x0 x1 x2 := by
  funext y
  unfold out0_3
  simp only [View.ld_unit_zero (S := S32x128) hz2, View.ld_unit_zero (S := S32) hz1]
  refine View.canon_apply_of_pieces (Val := Elt Ideal) (e := .f32) (blockG x0 x1 x2) _ ?_ y (cover0_3 _ _ _ _ y)
  intro p hp x
  simp only [List.mem_cons, List.not_mem_nil, or_false] at hp
  rcases hp with rfl | rfl | rfl | rfl
  · exact piece_eq x0 x1 x2 3 inb_S4x1024x128_S1x1024x128_3_0_0 inb_S4x32x128_S1x32x128_3_0_0 x
  · exact piece_eq x0 x1 x2 2 inb_S4x1024x128_S1x1024x128_2_0_0 inb_S4x32x128_S1x32x128_2_0_0 x
  · exact piece_eq x0 x1 x2 1 inb_S4x1024x128_S1x1024x128_1_0_0 inb_S4x32x128_S1x32x128_1_0_0 x
  · exact piece_eq x0 x1 x2 0 inb_S4x1024x128_S1x1024x128_0_0_0 inb_S4x32x128_S1x32x128_0_0_0 x

/-! ## The windows' blocks, and the arrays as the region finds them -/

/-- The printed index maps, decided over the four points: the descriptors' and the result's blocks move together
    along the batch axis, the codewords and the factors stay whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The descriptors as the region finds them: the host's reshape of the feature map. -/
theorem entry_main_v0 (c : Dev nD) :
    (V m c main_v0 : S16x1024x128.Idx → EReal)
      = shapeCast S16x1024x128 (m ((c : Thread nD τ).loc main_arg0)) shapeCasts_S16x32x32x128_S16x1024x128 := by
  dsimp only [Gen.V, Gen.hostOps0]
  after_results
  rfl

/-- The result array as a function of the argument arrays. -/
abbrev G (c : Dev nD) : S16x32x128.Idx → EReal :=
  encodeArgs (m ((c : Thread nD τ).loc main_arg0)) (m ((c : Thread nD τ).loc main_arg1)) (m ((c : Thread nD τ).loc main_arg2))

/-- The descriptors' block at point `t` is rows `4t … 4t + 3` of the reshaped feature map. -/
theorem iblk0_apply (c : Dev nD) (t : Fin cfg0.N) (x : S4x1024x128.Idx) (i : S16x1024x128.Idx)
    (h0 : (i 0).val = 4 * t.val + (x 0).val) (h1 : (i 1).val = (x 1).val) (h2 : (i 2).val = (x 2).val) :
    (iblk m c 0 t : Vec Ideal S4x1024x128 .f32) x = (V m c main_v0 : S16x1024x128.Idx → EReal) i := by
  obtain ⟨a0, a1, a2, -⟩ := idx_facts t
  unfold iblk
  rw [View.read_apply]
  show V m c main_v0 _ = V m c main_v0 _
  refine congrArg _ ?_
  funext a; apply Fin.ext
  match a with
  | ⟨0, _⟩ => show win0_0.index t (0 : Fin 3) * 4 + 1 * (x 0).val = (i 0).val; omega
  | ⟨1, _⟩ => show win0_0.index t (1 : Fin 3) * 1024 + 1 * (x 1).val = (i 1).val; omega
  | ⟨2, _⟩ => show win0_0.index t (2 : Fin 3) * 128 + 1 * (x 2).val = (i 2).val; omega

/-- The codewords' block at every point is the codewords' array. -/
theorem iblk1_apply (c : Dev nD) (t : Fin cfg0.N) (x : S32x128.Idx) :
    (iblk m c 1 t : Vec Ideal S32x128 .f32) x = (m ((c : Thread nD τ).loc main_arg1) : S32x128.Idx → EReal) x := by
  obtain ⟨-, -, -, b0, b1, -⟩ := idx_facts t
  unfold iblk
  rw [View.read_apply]
  show V m c main_arg1 _ = m ((c : Thread nD τ).loc main_arg1) _
  rw [V_main_arg1]
  refine congrArg _ ?_
  funext a; apply Fin.ext
  match a with
  | ⟨0, _⟩ => show win0_1.index t (0 : Fin 2) * 32 + 1 * (x 0).val = (x 0).val; omega
  | ⟨1, _⟩ => show win0_1.index t (1 : Fin 2) * 128 + 1 * (x 1).val = (x 1).val; omega

/-- The factors' block at every point is the factors' array. -/
theorem iblk2_apply (c : Dev nD) (t : Fin cfg0.N) (x : S32.Idx) :
    (iblk m c 2 t : Vec Ideal S32 .f32) x = (m ((c : Thread nD τ).loc main_arg2) : S32.Idx → EReal) x := by
  obtain ⟨-, -, -, -, -, c0, -⟩ := idx_facts t
  unfold iblk
  rw [View.read_apply]
  show V m c main_arg2 _ = m ((c : Thread nD τ).loc main_arg2) _
  rw [V_main_arg2]
  refine congrArg _ ?_
  funext a; apply Fin.ext
  match a with
  | ⟨0, _⟩ => show win0_2.index t (0 : Fin 1) * 32 + 1 * (x 0).val = (x 0).val; omega

/-- Position `j` of point `t`'s block and the position `i` of the result it is written to (image `4t + j₀`, the same
    codeword and feature) hold the same value: `blockG` of the point's loaded blocks against the specification of the
    argument arrays. -/
theorem block_eq (c : Dev nD) (t : Fin cfg0.N) (j : S4x32x128.Idx) (i : S16x32x128.Idx)
    (e0 : (i 0).val = 4 * t.val + (j 0).val) (e1 : (i 1).val = (j 1).val) (e2 : (i 2).val = (j 2).val) :
    blockG (iblk m c 0 t) (iblk m c 1 t) (iblk m c 2 t) j = G m c i := by
  unfold blockG G encodeArgs encodeAll
  refine encode_congr ?_ ?_ ?_ (Fin.ext e1.symm) (Fin.ext e2.symm)
  · funext n d
    exact (iblk0_apply m c t (ix3 (j 0) n d) (ix3 (i 0) n d) e0 rfl rfl).trans (congrFun (entry_main_v0 m c) _)
  · funext k d
    exact iblk1_apply m c t (ix2 k d)
  · funext k
    exact iblk2_apply m c t (ix1 k)

/-- WHAT POINT `t` WRITES BACK is block `t` of the specification applied to the argument arrays. -/
theorem flushed_eq (c : Dev nD) (t : Fin cfg0.N) :
    (dats m 0 c).flushed 3 t = ((cfg0.win 3).blk t).view.read (Elt Ideal) (G m c) := by
  rw [Cert.KernelIdeal.Value.flushed3, out_eq]
  obtain ⟨-, -, -, -, -, -, o0, o1, o2⟩ := idx_facts t
  funext j
  refine block_eq m c t ((cfg0.win 3).xinj (grid0.coords t) j) (((cfg0.win 3).blk t).view.emb j) ?_ ?_ ?_
  · show win0_3.index t (0 : Fin 3) * 4 + 1 * (j 0).val = 4 * t.val + (j 0).val
    omega
  · show win0_3.index t (1 : Fin 3) * 32 + 1 * (j 1).val = (j 1).val
    omega
  · show win0_3.index t (2 : Fin 3) * 128 + 1 * (j 2).val = (j 2).val
    omega

/-! ## The four blocks tile the result -/

/-- An index of the result is in point `t`'s block iff each coordinate is in the block's range on its axis. -/
theorem mem_blk (t : Fin cfg0.N) (i : S16x32x128.Idx) :
    i ∈ ((cfg0.win 3).blk t).view.set ↔ ∀ a : Fin 3, win0_3.index t a * S4x32x128.size a ≤ (i a).val
      ∧ (i a).val < win0_3.index t a * S4x32x128.size a + S4x32x128.size a := by
  show i ∈ ((View.whole main_v1).slice (win0_3.rect t)).set ↔ _
  rw [View.set_slice_whole, Rect.mem_set_unit]
  exact Iff.rfl

/-- Every index of the result lies in the block of the point that owns its image: image `b` belongs to point `b / 4`. -/
theorem covered (i : S16x32x128.Idx) :
    ∃ t : Fin cfg0.N, (cfg0.win 3).flush t = true ∧ i ∈ ((cfg0.win 3).blk t).view.set := by
  have h0 : (i 0).val < 16 := (i 0).isLt
  have h1 : (i 1).val < 32 := (i 1).isLt
  have h2 : (i 2).val < 128 := (i 2).isLt
  have hN : cfg0.N = 4 := N_0
  obtain ⟨t, ht⟩ : ∃ t : Fin cfg0.N, t.val = (i 0).val / 4 := ⟨⟨(i 0).val / 4, by rw [hN]; omega⟩, rfl⟩
  obtain ⟨_, _, _, _, _, _, o0, o1, o2⟩ := idx_facts t
  refine ⟨t, flush0_3 t, ?_⟩
  rw [mem_blk]
  intro a
  match a with
  | ⟨0, _⟩ =>
    show win0_3.index t (0 : Fin 3) * 4 ≤ (i 0).val ∧ (i 0).val < win0_3.index t (0 : Fin 3) * 4 + 4
    omega
  | ⟨1, _⟩ =>
    show win0_3.index t (1 : Fin 3) * 32 ≤ (i 1).val ∧ (i 1).val < win0_3.index t (1 : Fin 3) * 32 + 32
    omega
  | ⟨2, _⟩ =>
    show win0_3.index t (2 : Fin 3) * 128 ≤ (i 2).val ∧ (i 2).val < win0_3.index t (2 : Fin 3) * 128 + 128
    omega

/-- So the result array ends holding the specification of the argument arrays. -/
theorem final (c : Dev nD) : (dats m 0 c).arrAt 3 cfg0.N = G m c :=
  (dats m 0 c).arrAt_eq_of_cover 3 (G m c) (fun t _ => flushed_eq m c t) covered

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Blocks

end
-- ==== Proof.LibLastAxisMax.lean ====
/-
  A maximum along the last axis of a rank-3 array, read at an index, on the extended reals (general: any extents).

  * `hostLastAxisMax_apply`: the host's reduce with a maximum body along the last axis of an [a, b, c] array, read
    at `(i, j)`, is the fold of `max` from the initial value over the entries `(i, j, ·)`.
-/
import Idealize.ShloMosaic.PureOps.Ideal.Laws
import Idealize.ShloMosaic.Lib.ValueIdx

noncomputable section

open scoped BigOperators

open Idealize.ShloMosaic Idealize.ShloMosaic.ValueIdx

namespace Cert.LastAxisMax

/-- The reduced index `(i, j)` of an [a, b, c] array reduced along its last axis, with position `k` put back, is
    `(i, j, k)`. -/
theorem lift_last {a b c : Nat} (h : (⟨3, ![a, b, c]⟩ : Shape).Reduces [2] ⟨2, ![a, b]⟩) (i : Fin a) (j : Fin b) (k : Fin c) :
    h.lift (ix2 i j) k = ix3 i j k := by
  funext d; apply Fin.ext
  match d with
  | ⟨0, _⟩ => rfl
  | ⟨1, _⟩ => rfl
  | ⟨2, _⟩ => rfl

/-- The host's reduce with a maximum body along the last axis of an `a × b × c` array, read at `(i, j)`: the fold of
    `max`, from the initial value, over the entries `(i, j, k)`. -/
theorem hostLastAxisMax_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  show (Finset.univ : Finset (Fin c)).fold max (init (Shape.Idx.first hu)) (fun k => x (h.lift (ix2 i j) k)) = _
  refine congrArg (fun f => Finset.fold max (init (Shape.Idx.first hu)) f (Finset.univ : Finset (Fin c))) ?_
  funext k
  exact congrArg x (lift_last h i j k)

end Cert.LastAxisMax

end
-- ==== Proof.Reference.lean ====
/-
  The reference is the specification.

  The reference computes the whole batch at once with rank-3 arrays: the descriptors' squared norms [16, 1024], the
  codewords' squared norms [32], the inner products [16, 1024, 32], from them the scaled squared distances, their
  normalised exponentials along the last axis, and the residuals by a product batched over the images minus the
  weights' sums over the descriptors times the codewords.  Each stage is read here at an index built from its
  coordinates (image `b`, descriptor `n`, codeword `k`, feature `d`), through the generated one-operation readings,
  as the specification's function of the operands; the only re-indexings are broadcasts, whose index maps are
  identified coordinate by coordinate.  The descriptors `X` are the feature map reshaped, the first operation, which is
  never opened: the specification applies the same reshape.
-/
import proofs.«158125_j88699664597510_2_alg».proof.Proof.Gen.ReferenceIdeal.Read
import proofs.«158125_j88699664597510_2_alg».proof.Proof.Spec
import proofs.«158125_j88699664597510_2_alg».proof.Proof.LibLastAxisMax

noncomputable section

open scoped BigOperators

namespace Cert.ReferenceIdeal.RefValue

open Cert.ReferenceIdeal Cert.ReferenceIdeal.Gen Cert.ReferenceIdeal.Read Idealize.ShloMosaic Idealize.ShloMosaic.ValueIdx Cert.Encoding

variable (x0 : (⟨S16x32x32x128, .f32⟩ : BufTy).Contents (Elt Ideal)) (x1 : (⟨S32x128, .f32⟩ : BufTy).Contents (Elt Ideal))
  (x2 : (⟨S32, .f32⟩ : BufTy).Contents (Elt Ideal))

/-- The descriptors: image `b`, descriptor `n`, feature `d` of the reshaped feature map. -/
abbrev X (b : Fin 16) (n : Fin 1024) (d : Fin 128) : EReal := val_main_v0 (F := Ideal) x0 (ix3 b n d)

/-! ## The scaled squared distances -/

/-- The descriptors' squared norms, spread over the codewords. -/
theorem sqnorm_apply (b : Fin 16) (n : Fin 1024) (k : Fin 32) :
    val_main_v10 (F := Ideal) x0 (ix3 b n k) = ∑ d : Fin 128, X x0 b n d * X x0 b n d := by
  rw [val_main_v10_apply, val_main_v3_apply, val_main_v2_apply]
  simp only [val_main_v1_apply, val_main_cst_apply, Ideal.ofBits_def, Ideal.ofBits_zero_f32, zero_add, Ideal.mulf_def]
  refine Finset.sum_congr rfl fun d _ => ?_
  have e : idx_main_v2 (idx_main_v3 (idx_main_v10 (ix3 b n k))) d = ix3 b n d := by
    funext a; apply Fin.ext
    match a with
    | ⟨0, _⟩ => rfl
    | ⟨1, _⟩ => rfl
    | ⟨2, _⟩ => rfl
  rw [e]

/-- The codewords' squared norms, spread over the images and descriptors. -/
theorem cwnorm_apply (b : Fin 16) (n : Fin 1024) (k : Fin 32) :
    val_main_v13 (F := Ideal) x1 (ix3 b n k) = ∑ d : Fin 128, x1 (ix2 k d) * x1 (ix2 k d) := by
  rw [val_main_v13_apply, val_main_v12_apply, val_main_v5_apply]
  simp only [val_main_v4_apply, val_main_cst_0_apply, Ideal.ofBits_def, Ideal.ofBits_zero_f32, zero_add, Ideal.mulf_def]
  refine Finset.sum_congr rfl fun d _ => ?_
  have e : idx_main_v5 (idx_main_v12 (idx_main_v13 (ix3 b n k))) d = ix2 k d := by
    funext a; apply Fin.ext
    match a with
    | ⟨0, _⟩ => rfl
    | ⟨1, _⟩ => rfl
  rw [e]

/-- The inner products of descriptors and codewords. -/
theorem cross_apply (b : Fin 16) (n : Fin 1024) (k : Fin 32) :
    val_main_v6 (F := Ideal) x0 x1 (ix3 b n k) = ∑ d : Fin 128, X x0 b n d * x1 (ix2 k d) := by
  rw [val_main_v6_apply]
  refine Finset.sum_congr rfl fun d _ => ?_
  have el : lidx_main_v6 (ix3 b n k) d = ix3 b n d := by
    funext a; apply Fin.ext
    match a with
    | ⟨0, _⟩ => rfl
    | ⟨1, _⟩ => rfl
    | ⟨2, _⟩ => rfl
  have er : ridx_main_v6 (ix3 b n k) d = ix2 k d := by
    funext a; apply Fin.ext
    match a with
    | ⟨0, _⟩ => rfl
    | ⟨1, _⟩ => rfl
  rw [el, er]

/-- The factors, spread over the images and descriptors. -/
theorem factor_apply (b : Fin 16) (n : Fin 1024) (k : Fin 32) :
    val_main_v15 (F := Ideal) x2 (ix3 b n k) = x2 (ix1 k) := by
  rw [val_main_v15_apply, val_main_v7_apply]
  refine congrArg x2 ?_
  funext a; apply Fin.ext
  match a with
  | ⟨0, _⟩ => rfl

/-- The scaled squared distances are the specification's. -/
theorem logits_apply (b : Fin 16) (n : Fin 1024) (k : Fin 32) :
    val_main_v16 (F := Ideal) x0 x1 x2 (ix3 b n k)
      = logit (X x0 b) (fun k d => x1 (ix2 k d)) (fun k => ∑ d : Fin 128, x1 (ix2 k d) * x1 (ix2 k d)) (fun k => x2 (ix1 k)) n k := by
  rw [val_main_v16_apply, val_main_v14_apply, val_main_v11_apply, val_main_v9_apply, val_main_v8_apply, val_main_cst_1_apply,
    factor_apply, sqnorm_apply, cwnorm_apply, cross_apply]
  rfl

/-! ## The soft assignment -/

/-- The rows' greatest entries, spread back along the rows. -/
theorem top_apply (b : Fin 16) (n : Fin 1024) (k : Fin 32) :
    val_main_v21 (F := Ideal) x0 x1 x2 (ix3 b n k)
      = rowTop (fun n k => val_main_v16 (F := Ideal) x0 x1 x2 (ix3 b n k)) n := by
  rw [val_main_v21_apply, val_main_v20_apply]
  have e : idx_main_v20 (idx_main_v21 (ix3 b n k)) = ix2 b n := by
    funext a; apply Fin.ext
    match a with
    | ⟨0, _⟩ => rfl
    | ⟨1, _⟩ => rfl
  rw [e, val_main_v19_apply, val_main_v18_apply, val_main_cst_3_apply]
  unfold val_main_v17 rowTop
  rw [LastAxisMax.hostLastAxisMax_apply (val_main_v16 (F := Ideal) x0 x1 x2) (val_main_cst_2 (F := Ideal))
    reducesTo_S16x1024x32_S16x1024_d2 (by decide) h_S_ b n]
  rfl

/-- The exponentials, the row's greatest entry taken off. -/
theorem expo_apply (b : Fin 16) (n : Fin 1024) (k : Fin 32) :
    val_main_v23 (F := Ideal) x0 x1 x2 (ix3 b n k)
      = Ideal.exp (val_main_v16 (F := Ideal) x0 x1 x2 (ix3 b n k)
          - rowTop (fun n k => val_main_v16 (F := Ideal) x0 x1 x2 (ix3 b n k)) n) := by
  rw [val_main_v23_apply, val_main_v22_apply, top_apply]
  rfl

/-- The weights are the specification's weights of the scaled squared distances. -/
theorem weights_apply (b : Fin 16) (n : Fin 1024) (k : Fin 32) :
    val_main_v27 (F := Ideal) x0 x1 x2 (ix3 b n k)
      = weight (fun n k => val_main_v16 (F := Ideal) x0 x1 x2 (ix3 b n k)) n k := by
  rw [val_main_v27_apply, val_main_v26_apply, val_main_v25_apply]
  have e : idx_main_v25 (idx_main_v26 (ix3 b n k)) = ix2 b n := by
    funext a; apply Fin.ext
    match a with
    | ⟨0, _⟩ => rfl
    | ⟨1, _⟩ => rfl
  rw [e, val_main_v24_apply]
  have e' : ∀ k' : Fin 32, idx_main_v24 (ix2 b n) k' = ix3 b n k' := fun k' => by
    funext a; apply Fin.ext
    match a with
    | ⟨0, _⟩ => rfl
    | ⟨1, _⟩ => rfl
    | ⟨2, _⟩ => rfl
  simp only [e', expo_apply, val_main_cst_4_apply, Ideal.ofBits_def, Ideal.ofBits_zero_f32, zero_add, Ideal.hostDivf_def]
  rfl

/-! ## The residuals -/

/-- The weighted sums of the descriptors. -/
theorem gather_apply (b : Fin 16) (k : Fin 32) (d : Fin 128) :
    val_main_v28 (F := Ideal) x0 x1 x2 (ix3 b k d)
      = ∑ n : Fin 1024, val_main_v27 (F := Ideal) x0 x1 x2 (ix3 b n k) * X x0 b n d := by
  rw [val_main_v28_apply]
  refine Finset.sum_congr rfl fun n _ => ?_
  have el : lidx_main_v28 (ix3 b k d) n = ix3 b n k := by
    funext a; apply Fin.ext
    match a with
    | ⟨0, _⟩ => rfl
    | ⟨1, _⟩ => rfl
    | ⟨2, _⟩ => rfl
  have er : ridx_main_v28 (ix3 b k d) n = ix3 b n d := by
    funext a; apply Fin.ext
    match a with
    | ⟨0, _⟩ => rfl
    | ⟨1, _⟩ => rfl
    | ⟨2, _⟩ => rfl
  rw [el, er]

/-- The weights summed over the descriptors, spread along the features. -/
theorem colsum_apply (b : Fin 16) (k : Fin 32) (d : Fin 128) :
    val_main_v32 (F := Ideal) x0 x1 x2 (ix3 b k d) = ∑ n : Fin 1024, val_main_v27 (F := Ideal) x0 x1 x2 (ix3 b n k) := by
  rw [val_main_v32_apply, val_main_v30_apply]
  have e : idx_main_v30 (idx_main_v32 (ix3 b k d)) = ix2 b k := by
    funext a; apply Fin.ext
    match a with
    | ⟨0, _⟩ => rfl
    | ⟨1, _⟩ => rfl
  rw [e, val_main_v29_apply]
  have e' : ∀ n : Fin 1024, idx_main_v29 (ix2 b k) n = ix3 b n k := fun n => by
    funext a; apply Fin.ext
    match a with
    | ⟨0, _⟩ => rfl
    | ⟨1, _⟩ => rfl
    | ⟨2, _⟩ => rfl
  simp only [e', val_main_cst_5_apply, Ideal.ofBits_def, Ideal.ofBits_zero_f32, zero_add]

/-- The codewords, spread over the images. -/
theorem codeword_apply (b : Fin 16) (k : Fin 32) (d : Fin 128) :
    val_main_v33 (F := Ideal) x1 (ix3 b k d) = x1 (ix2 k d) := by
  rw [val_main_v33_apply, val_main_v31_apply]
  refine congrArg x1 ?_
  funext a; apply Fin.ext
  match a with
  | ⟨0, _⟩ => rfl
  | ⟨1, _⟩ => rfl

/-- The reference's result is the specification of its arguments. -/
theorem result_eq : val_main_v35 (F := Ideal) x0 x1 x2 = encodeArgs x0 x1 x2 := by
  funext i
  obtain ⟨b, k, d, rfl⟩ : ∃ (b : Fin 16) (k : Fin 32) (d : Fin 128), i = ix3 b k d := ⟨i 0, i 1, i 2, eq_ix3 i⟩
  rw [val_main_v35_apply, val_main_v34_apply, gather_apply, colsum_apply, codeword_apply]
  have hw : (fun (n : Fin 1024) (k : Fin 32) => val_main_v27 (F := Ideal) x0 x1 x2 (ix3 b n k))
      = weight (logit (X x0 b) (fun k d => x1 (ix2 k d)) (fun k => ∑ d : Fin 128, x1 (ix2 k d) * x1 (ix2 k d))
          (fun k => x2 (ix1 k))) := by
    funext n k
    rw [weights_apply]
    refine congrArg (fun L => weight L n k) ?_
    funext n k
    exact logits_apply x0 x1 x2 b n k
  simp only [congrFun (congrFun hw _) _]
  rfl

end Cert.ReferenceIdeal.RefValue

end
-- ==== Proof.lean ====
/-
  The residual-encoding layer: a kernel that encodes four images per grid point against the whole-batch reference.

  For every image `b` of the batch, with descriptors `X b n` (1024 of width 128), codewords `C k` (32) and
  smoothing factors `s k`, both programs compute, on the extended reals,
    `L n k = s k · (‖X b n‖² − 2 · ⟨X b n, C k⟩ + ‖C k‖²)`,
    `A n k = exp (L n k − maxₖ L n ·) / ∑ₖ exp (L n · − maxₖ L n ·)`,
    `E b k d = ∑ₙ A n k · X b n d − (∑ₙ A n k) · C k d`
  (`Proof/Spec.lean`).  The kernel does so image by image, four images to a grid point, with its matrix products on
  narrowed operands (the identity on the extended reals) and its lane reductions from their neutral elements; the
  reference does so for the whole batch with rank-3 operations and sums started at zero.  The two are the same tree of
  operations over differently shaped arrays, so no entry needs to be finite and the precondition is never opened:
  * `Proof/KernelBatch.lean` reads one image of the kernel's block at an entry;
  * `Proof/KernelBlocks.lean` assembles the four pieces of a block, the blocks into the result array, and the kernel's
    run (over the generated frame run with the result array named);
  * `Proof/Reference.lean` reads the reference's result at an entry (over the generated one-operation readings of its
    run);
  and here the five claims are put together: the three frames are the generated ones (the reference's from its run),
  the idealization rewrote nothing, and both results are `Cert.Encoding.encodeArgs` of the argument arrays.
-/
import proofs.«158125_j88699664597510_2_alg».proof.Defs
import proofs.«158125_j88699664597510_2_alg».proof.Proof.Gen.Kernel
import proofs.«158125_j88699664597510_2_alg».proof.Proof.Gen.Kernel.Skeleton
import proofs.«158125_j88699664597510_2_alg».proof.Proof.Gen.Kernel.Launch
import proofs.«158125_j88699664597510_2_alg».proof.Proof.Gen.Kernel.Points
import proofs.«158125_j88699664597510_2_alg».proof.Proof.Gen.Kernel.Frame
import proofs.«158125_j88699664597510_2_alg».proof.Proof.Gen.KernelIdeal
import proofs.«158125_j88699664597510_2_alg».proof.Proof.Gen.KernelIdeal.Skeleton
import proofs.«158125_j88699664597510_2_alg».proof.Proof.Gen.KernelIdeal.Launch
import proofs.«158125_j88699664597510_2_alg».proof.Proof.Gen.KernelIdeal.Points
import proofs.«158125_j88699664597510_2_alg».proof.Proof.Gen.KernelIdeal.Frame
import proofs.«158125_j88699664597510_2_alg».proof.Proof.Gen.ReferenceIdeal
import proofs.«158125_j88699664597510_2_alg».proof.Proof.Gen.Pre_finite_inputs
import proofs.«158125_j88699664597510_2_alg».proof.Proof.Gen.KernelIdeal.Value
import proofs.«158125_j88699664597510_2_alg».proof.Proof.Gen.ReferenceIdeal.Run
import proofs.«158125_j88699664597510_2_alg».proof.Proof.Gen.ReferenceIdeal.Read
import proofs.«158125_j88699664597510_2_alg».proof.Proof.KernelBlocks
import proofs.«158125_j88699664597510_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's both end at the
    specification of the argument arrays. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
